-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x16x64 : Shape := ⟨3, ![1, 16, 64]⟩
abbrev S64x16x64 : Shape := ⟨3, ![64, 16, 64]⟩
abbrev S64x16x1 : Shape := ⟨3, ![64, 16, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x16x64 : S_.BroadcastsInDim S1x16x64 (![] : Fin 0 → Fin S1x16x64.rank)
  reducesTo_S1x16x64_S_d0_1_2 : S1x16x64.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_
  bcast_S_S64x16x1 : S_.BroadcastsInDim S64x16x1 (![] : Fin 0 → Fin S64x16x1.rank)
  reducesTo_S64x16x1_S_d0_1_2 : S64x16x1.ReducesTo [0, 1, 2] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S64x16x64 .f32) (main_arg5 : FVec F S64x16x64 .f32) (main_arg6 : FVec F S64x16x1 .f32) (main_arg7 : FVec F S4096 .f32) (main_v13 : IVec S_ 1) (main_v16 : IVec S64x16x64 1) : IVec S_ 1 :=
  let main_c_5 : IVec S_ 1 := constantI S_ 1 1#1
  let main_v17 : IVec S_ 1 := (fun x v => Host.reduce IntOp.andi x v reducesTo_S64x16x64_S_d0_1_2 h_S_) main_v16 main_c_5
  let main_v18 : IVec S_ 1 := andi main_v13 main_v17
  let main_v19 : FVec F S64x16x64 .f32 := Host.absf main_arg4
  let main_cst_6 : FVec F S_ .f32 := constant S_ .f32 0x7F800000#32
  let main_v20 : FVec F S64x16x64 .f32 := broadcastInDim S64x16x64 ![] bcast_S_S64x16x64 main_cst_6
  let main_v21 : IVec S64x16x64 1 := cmpf .olt main_v19 main_v20
  let main_c_7 : IVec S_ 1 := constantI S_ 1 1#1
  let main_v22 : IVec S_ 1 := (fun x v => Host.reduce IntOp.andi x v reducesTo_S64x16x64_S_d0_1_2 h_S_) main_v21 main_c_7
  let main_v23 : IVec S_ 1 := andi main_v18 main_v22
  let main_v24 : FVec F S64x16x64 .f32 := Host.absf main_arg5
  let main_cst_8 : FVec F S_ .f32 := constant S_ .f32 0x7F800000#32
  let main_v25 : FVec F S64x16x64 .f32 := broadcastInDim S64x16x64 ![] bcast_S_S64x16x64 main_cst_8
  let main_v26 : IVec S64x16x64 1 := cmpf .olt main_v24 main_v25
  let main_c_9 : IVec S_ 1 := constantI S_ 1 1#1
  let main_v27 : IVec S_ 1 := (fun x v => Host.reduce IntOp.andi x v reducesTo_S64x16x64_S_d0_1_2 h_S_) main_v26 main_c_9
  let main_v28 : IVec S_ 1 := andi main_v23 main_v27
  let main_v29 : FVec F S64x16x1 .f32 := Host.absf main_arg6
  let main_cst_10 : FVec F S_ .f32 := constant S_ .f32 0x7F800000#32
  let main_v30 : FVec F S64x16x1 .f32 := broadcastInDim S64x16x1 ![] bcast_S_S64x16x1 main_cst_10
  let main_v31 : IVec S64x16x1 1 := cmpf .olt main_v29 main_v30
  let main_c_11 : IVec S_ 1 := constantI S_ 1 1#1
  let main_v32 : IVec S_ 1 := (fun x v => Host.reduce IntOp.andi x v reducesTo_S64x16x1_S_d0_1_2 h_S_) main_v31 main_c_11
  let main_v33 : IVec S_ 1 := andi main_v28 main_v32
  fn_part2 (F := F) main_arg7 main_v33

def fn {F : FTy → Type} [FloatOps F] (main_arg0 : FVec F S8192x4096 .f32) (main_arg1 : FVec F S1x16x64 .f32) (main_arg2 : FVec F S64x16x64 .f32) (main_arg3 : FVec F S64x16x64 .f32) (main_arg4 : FVec F S64x16x64 .f32) (main_arg5 : FVec F S64x16x64 .f32) (main_arg6 : FVec F S64x16x1 .f32) (main_arg7 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x16x64 .f32 := Host.absf main_arg1
  let main_cst_0 : FVec F S_ .f32 := constant S_ .f32 0x7F800000#32
  let main_v5 : FVec F S1x16x64 .f32 := broadcastInDim S1x16x64 ![] bcast_S_S1x16x64 main_cst_0
  let main_v6 : IVec S1x16x64 1 := cmpf .olt main_v4 main_v5
  let main_c_1 : IVec S_ 1 := constantI S_ 1 1#1
  let main_v7 : IVec S_ 1 := (fun x v => Host.reduce IntOp.andi x v reducesTo_S1x16x64_S_d0_1_2 h_S_) main_v6 main_c_1
  let main_v8 : IVec S_ 1 := andi main_v3 main_v7
  let main_v9 : FVec F S64x16x64 .f32 := Host.absf main_arg2
  let main_cst_2 : FVec F S_ .f32 := constant S_ .f32 0x7F800000#32
  let main_v10 : FVec F S64x16x64 .f32 := broadcastInDim S64x16x64 ![] bcast_S_S64x16x64 main_cst_2
  let main_v11 : IVec S64x16x64 1 := cmpf .olt main_v9 main_v10
  let main_c_3 : IVec S_ 1 := constantI S_ 1 1#1
  let main_v12 : IVec S_ 1 := (fun x v => Host.reduce IntOp.andi x v reducesTo_S64x16x64_S_d0_1_2 h_S_) main_v11 main_c_3
  let main_v13 : IVec S_ 1 := andi main_v8 main_v12
  let main_v14 : FVec F S64x16x64 .f32 := Host.absf main_arg3
  let main_cst_4 : FVec F S_ .f32 := constant S_ .f32 0x7F800000#32
  let main_v15 : FVec F S64x16x64 .f32 := broadcastInDim S64x16x64 ![] bcast_S_S64x16x64 main_cst_4
  let main_v16 : IVec S64x16x64 1 := cmpf .olt main_v14 main_v15
  fn_part1 (F := F) main_arg4 main_arg5 main_arg6 main_arg7 main_v13 main_v16
-- ==== Kernel.lean ====
abbrev S8192x4096 : Shape := ⟨2, ![8192, 4096]⟩
abbrev S1x16x64 : Shape := ⟨3, ![1, 16, 64]⟩
abbrev S64x16x64 : Shape := ⟨3, ![64, 16, 64]⟩
abbrev S64x16x1 : Shape := ⟨3, ![64, 16, 1]⟩
abbrev S4096 : Shape := ⟨1, ![4096]⟩
abbrev S16x64 : Shape := ⟨2, ![16, 64]⟩
abbrev S64x1024 : Shape := ⟨2, ![64, 1024]⟩
abbrev S16x1024 : Shape := ⟨2, ![16, 1024]⟩
abbrev S256x64 : Shape := ⟨2, ![256, 64]⟩
abbrev S256x1024 : Shape := ⟨2, ![256, 1024]⟩
abbrev S4096x64 : Shape := ⟨2, ![4096, 64]⟩
abbrev S64x16 : Shape := ⟨2, ![64, 16]⟩
abbrev S1024x64 : Shape := ⟨2, ![1024, 64]⟩
abbrev S1024x16 : Shape := ⟨2, ![1024, 16]⟩
abbrev S64x256 : Shape := ⟨2, ![64, 256]⟩
abbrev S1024x256 : Shape := ⟨2, ![1024, 256]⟩
abbrev S64x4096 : Shape := ⟨2, ![64, 4096]⟩
abbrev S1x4096 : Shape := ⟨2, ![1, 4096]⟩
abbrev S256x4096 : Shape := ⟨2, ![256, 4096]⟩

abbrev nBuf : Space → Nat
  | .hbm => 27
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x16x64, .f32⟩
  | .hbm, ⟨2, _⟩ => ⟨S64x16x64, .f32⟩
  | .hbm, ⟨3, _⟩ => ⟨S64x16x64, .f32⟩
  | .hbm, ⟨4, _⟩ => ⟨S64x16x64, .f32⟩
  | .hbm, ⟨5, _⟩ => ⟨S64x16x64, .f32⟩
  | .hbm, ⟨6, _⟩ => ⟨S64x16x1, .f32⟩
  | .hbm, ⟨7, _⟩ => ⟨S4096, .f32⟩
  | .hbm, ⟨8, _⟩ => ⟨S16x64, .f32⟩
  | .hbm, ⟨9, _⟩ => ⟨S64x1024, .f32⟩
  | .hbm, ⟨10, _⟩ => ⟨S16x1024, .f32⟩
  | .hbm, ⟨11, _⟩ => ⟨S256x64, .f32⟩
  | .hbm, ⟨12, _⟩ => ⟨S64x1024, .f32⟩
  | .hbm, ⟨13, _⟩ => ⟨S256x1024, .f32⟩
  | .hbm, ⟨14, _⟩ => ⟨S4096x64, .f32⟩
  | .hbm, ⟨15, _⟩ => ⟨S64x16, .f32⟩
  | .hbm, ⟨16, _⟩ => ⟨S1024x64, .f32⟩
  | .hbm, ⟨17, _⟩ => ⟨S1024x16, .f32⟩
  | .hbm, ⟨18, _⟩ => ⟨S64x256, .f32⟩
  | .hbm, ⟨19, _⟩ => ⟨S1024x64, .f32⟩
  | .hbm, ⟨20, _⟩ => ⟨S1024x256, .f32⟩
  | .hbm, ⟨21, _⟩ => ⟨S64x4096, .f32⟩
  | .hbm, ⟨22, _⟩ => ⟨S1x4096, .f32⟩
  | .hbm, ⟨23, _⟩ => ⟨S64x4096, .f32⟩
  | .hbm, ⟨24, _⟩ => ⟨S64x4096, .bf16⟩
  | .hbm, ⟨25, _⟩ => ⟨S64x4096, .bf16⟩
  | .hbm, ⟨26, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S64x4096, .bf16⟩
  | .local _ .vmem, ⟨3, _⟩ => ⟨S64x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x16x64_S16x64 : S1x16x64.ShapeCasts S16x64
  shapeCasts_S64x16x64_S64x1024 : S64x16x64.ShapeCasts S64x1024
  shapeCasts_S16x1024_S256x64 : S16x1024.ShapeCasts S256x64
  shapeCasts_S256x1024_S4096x64 : S256x1024.ShapeCasts S4096x64
  shapeCasts_S64x16x1_S64x16 : S64x16x1.ShapeCasts S64x16
  shapeCasts_S64x16x64_S1024x64 : S64x16x64.ShapeCasts S1024x64
  shapeCasts_S1024x16_S64x256 : S1024x16.ShapeCasts S64x256
  shapeCasts_S1024x256_S64x4096 : S1024x256.ShapeCasts S64x4096
  shapeCasts_S4096_S1x4096 : S4096.ShapeCasts S1x4096
  transposes_S4096x64_S64x4096_1_0 : S4096x64.Transposes [1, 0] S64x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S16x64_S64x1024_S16x1024_1_0_0_1_n_n_wf : DotDims.WF S16x64 S64x1024 S16x1024 [1] [0] [0] [1] [] []
  dot_S256x64_S64x1024_S256x1024_1_0_0_1_n_n_wf : DotDims.WF S256x64 S64x1024 S256x1024 [1] [0] [0] [1] [] []
  dot_S1024x64_S64x16_S1024x16_1_0_0_1_n_n_wf : DotDims.WF S1024x64 S64x16 S1024x16 [1] [0] [0] [1] [] []
  dot_S1024x64_S64x256_S1024x256_1_0_0_1_n_n_wf : DotDims.WF S1024x64 S64x256 S1024x256 [1] [0] [0] [1] [] []
  dot_S256x4096_S64x4096_S256x64_1_1_0_0_n_n_wf : DotDims.WF S256x4096 S64x4096 S256x64 [1] [1] [0] [0] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .bf16 = 32 ∨ (Rect.block (s := S64x4096) S64x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .bf16 = 32 ∨ (Rect.block (s := S64x4096) S64x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S16x64_S64x1024_S16x1024_1_0_0_1_n_n : DotDims S16x64 S64x1024 S16x1024 where
  lhsContracting := [1]
  rhsContracting := [0]
  lhsNonContracting := [0]
  rhsNonContracting := [1]
  lhsBatch := []
  rhsBatch := []
  wf := dot_S16x64_S64x1024_S16x1024_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x16x64 : Shape := ⟨3, ![1, 16, 64]⟩
abbrev S64x16x64 : Shape := ⟨3, ![64, 16, 64]⟩
abbrev S64x16x1 : Shape := ⟨3, ![64, 16, 1]⟩
abbrev S4096 : Shape := ⟨1, ![4096]⟩
abbrev S16x64 : Shape := ⟨2, ![16, 64]⟩
abbrev S64x1024 : Shape := ⟨2, ![64, 1024]⟩
abbrev S16x1024 : Shape := ⟨2, ![16, 1024]⟩
abbrev S256x64 : Shape := ⟨2, ![256, 64]⟩
abbrev S256x1024 : Shape := ⟨2, ![256, 1024]⟩
abbrev S4096x64 : Shape := ⟨2, ![4096, 64]⟩
abbrev S4096x1024 : Shape := ⟨2, ![4096, 1024]⟩
abbrev S65536x64 : Shape := ⟨2, ![65536, 64]⟩
abbrev S65536x1024 : Shape := ⟨2, ![65536, 1024]⟩
abbrev S1048576x64 : Shape := ⟨2, ![1048576, 64]⟩
abbrev S64x16 : Shape := ⟨2, ![64, 16]⟩
abbrev S1048576x16 : Shape := ⟨2, ![1048576, 16]⟩
abbrev S4096x4096 : Shape := ⟨2, ![4096, 4096]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x16x64, .f32⟩
  | .hbm, ⟨2, _⟩ => ⟨S64x16x64, .f32⟩
  | .hbm, ⟨3, _⟩ => ⟨S64x16x64, .f32⟩
  | .hbm, ⟨4, _⟩ => ⟨S64x16x64, .f32⟩
  | .hbm, ⟨5, _⟩ => ⟨S64x16x64, .f32⟩
  | .hbm, ⟨6, _⟩ => ⟨S64x16x1, .f32⟩
  | .hbm, ⟨7, _⟩ => ⟨S4096, .f32⟩
  | .hbm, ⟨8, _⟩ => ⟨S16x64, .f32⟩
  | .hbm, ⟨9, _⟩ => ⟨S64x1024, .f32⟩
  | .hbm, ⟨10, _⟩ => ⟨S16x1024, .f32⟩
  | .hbm, ⟨11, _⟩ => ⟨S256x64, .f32⟩
  | .hbm, ⟨12, _⟩ => ⟨S64x1024, .f32⟩
  | .hbm, ⟨13, _⟩ => ⟨S256x1024, .f32⟩
  | .hbm, ⟨14, _⟩ => ⟨S4096x64, .f32⟩
  | .hbm, ⟨15, _⟩ => ⟨S64x1024, .f32⟩
  | .hbm, ⟨16, _⟩ => ⟨S4096x1024, .f32⟩
  | .hbm, ⟨17, _⟩ => ⟨S65536x64, .f32⟩
  | .hbm, ⟨18, _⟩ => ⟨S64x1024, .f32⟩
  | .hbm, ⟨19, _⟩ => ⟨S65536x1024, .f32⟩
  | .hbm, ⟨20, _⟩ => ⟨S1048576x64, .f32⟩
  | .hbm, ⟨21, _⟩ => ⟨S64x16, .f32⟩
  | .hbm, ⟨22, _⟩ => ⟨S1048576x16, .f32⟩
  | .hbm, ⟨23, _⟩ => ⟨S4096x4096, .f32⟩
  | .hbm, ⟨24, _⟩ => ⟨S4096x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S1x16x64_S16x64 : S1x16x64.ShapeCasts S16x64
  shapeCasts_S64x16x64_S64x1024 : S64x16x64.ShapeCasts S64x1024
  shapeCasts_S16x1024_S256x64 : S16x1024.ShapeCasts S256x64
  shapeCasts_S256x1024_S4096x64 : S256x1024.ShapeCasts S4096x64
  shapeCasts_S4096x1024_S65536x64 : S4096x1024.ShapeCasts S65536x64
  shapeCasts_S65536x1024_S1048576x64 : S65536x1024.ShapeCasts S1048576x64
  shapeCasts_S64x16x1_S64x16 : S64x16x1.ShapeCasts S64x16
  shapeCasts_S1048576x16_S4096x4096 : S1048576x16.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S16x64_S64x1024_S16x1024_1_0_0_1_n_n_wf : DotDims.WF S16x64 S64x1024 S16x1024 [1] [0] [0] [1] [] []
  dot_S256x64_S64x1024_S256x1024_1_0_0_1_n_n_wf : DotDims.WF S256x64 S64x1024 S256x1024 [1] [0] [0] [1] [] []
  dot_S4096x64_S64x1024_S4096x1024_1_0_0_1_n_n_wf : DotDims.WF S4096x64 S64x1024 S4096x1024 [1] [0] [0] [1] [] []
  dot_S65536x64_S64x1024_S65536x1024_1_0_0_1_n_n_wf : DotDims.WF S65536x64 S64x1024 S65536x1024 [1] [0] [0] [1] [] []
  dot_S1048576x64_S64x16_S1048576x16_1_0_0_1_n_n_wf : DotDims.WF S1048576x64 S64x16 S1048576x16 [1] [0] [0] [1] [] []
  dot_S8192x4096_S4096x4096_S8192x4096_1_0_0_1_n_n_wf : DotDims.WF S8192x4096 S4096x4096 S8192x4096 [1] [0] [0] [1] [] []

variable [Facts₀]

def dot_S16x64_S64x1024_S16x1024_1_0_0_1_n_n : DotDims S16x64 S64x1024 S16x1024 where
  lhsContracting := [1]
  rhsContracting := [0]
  lhsNonContracting := [0]
  rhsNonContracting := [1]
  lhsBatch := []
  rhsBatch := []
  wf := dot_S16x64_S64x1024_S16x1024_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.TTAlgebra.lean ====
/-
  A tensor-train weight, folded two ways.

  Six cores `G0 … G5` with bond rank 64 and mode size 16 define a 4096 × 4096 weight: with the output row
  `o = (a0, a1, a2)` and the input column `i = (a3, a4, a5)` (base-16 digits, most significant first),

      W (o, i) = ∑ r1 … r5, G0 (a0, r1) · G1 (r1, a1, r2) · G2 (r2, a2, r3) · G3 (r3, a3, r4) · G4 (r4, a4, r5) · G5 (r5, a5).

  Write `L (o, r3)` for the left half `∑ r1 r2, G0 · G1 · G2`, a 4096 × 64 matrix. A left-to-right fold of the train
  continues from `L`:    W (o, i) = ∑ r5, (∑ r4, (∑ r3, L (o, r3) · G3 (r3, a3, r4)) · G4 (r4, a4, r5)) · G5 (r5, a5)    (`weight`).
  A right-to-left fold of the last three cores gives the 64 × 4096 matrix
      R (r3, i) = ∑ r4, G3 (r3, a3, r4) · ∑ r5, G4 (r4, a4, r5) · G5 (r5, a5)                                           (`tail`),
  and `W = L · R`: the weight has rank at most 64. So the linear layer `x · Wᵀ + b` (`refOut`) is the two thin
  products `(x · Rᵀ) · Lᵀ + b` (`kerOut`). Both equalities are distributivity and an exchange of finite sums: true for
  real entries, false in general on the extended reals (a product of sums with an infinite term does not distribute),
  so the statements carry the hypothesis that every entry is real.
-/
import proofs.«179713_j91053306675883_2_alg».proof.Proof.LibSumSwap
import Idealize.ShloMosaic.Lib.ValueIdx

noncomputable section

open scoped BigOperators

namespace Cert.TTChain

open Idealize.ShloMosaic Idealize.ShloMosaic.ValueIdx

/-! ## Real-valued families on the extended reals -/

/-- Every entry of the family is (the image of) a real number. -/
def IsReal {ι : Type*} (f : ι → EReal) : Prop := ∀ i, ∃ r : ℝ, f i = (r : EReal)

/-- A real-valued family is the image of a family of reals. -/
theorem IsReal.exists_fun {ι : Type*} {f : ι → EReal} (h : IsReal f) : ∃ g : ι → ℝ, f = fun i => (g i : EReal) :=
  ⟨fun i => (h i).choose, funext fun i => (h i).choose_spec⟩

/-- A finite sum of products of real entries is real. -/
theorem isReal_sum_mul {κ : Type*} [Fintype κ] (f g : κ → EReal) (hf : IsReal f) (hg : IsReal g) :
    ∃ r : ℝ, ∑ k, f k * g k = (r : EReal) := by
  obtain ⟨f', rfl⟩ := hf.exists_fun
  obtain ⟨g', rfl⟩ := hg.exists_fun
  exact ⟨∑ k, f' k * g' k, by rw [SumSwap.coe_sum]; simp only [EReal.coe_mul]⟩

/-! ## The identity on the reals -/

/-- A sum against a matrix-vector product, regrouped: `∑ d, (∑ k, a k · x k d) · w d = ∑ k, a k · ∑ d, x k d · w d`. -/
theorem swap_real {ι κ : Type*} [Fintype ι] [Fintype κ] (a : ι → ℝ) (x : ι → κ → ℝ) (w : κ → ℝ) :
    (∑ d, (∑ k, a k * x k d) * w d) = ∑ k, a k * ∑ d, x k d * w d := by
  simp only [Finset.sum_mul, Finset.mul_sum]
  rw [Finset.sum_comm]
  exact Finset.sum_congr rfl fun k _ => Finset.sum_congr rfl fun d _ => mul_assoc _ _ _

/-- The left fold continued through three cores is the left half against the right fold of those cores. -/
theorem fold_real {K : Type*} [Fintype K] (L : K → ℝ) (A3 A4 : K → K → ℝ) (A5 : K → ℝ) :
    (∑ r5, (∑ r4, (∑ r3, L r3 * A3 r3 r4) * A4 r4 r5) * A5 r5)
      = ∑ r3, L r3 * ∑ r4, A3 r3 r4 * ∑ r5, A4 r4 r5 * A5 r5 :=
  (swap_real (fun r4 => ∑ r3, L r3 * A3 r3 r4) A4 A5).trans
    (swap_real L A3 (fun r4 => ∑ r5, A4 r4 r5 * A5 r5))

/-- A row of `x` against the folded weight is that row against the right fold, then against the left half. -/
theorem chain_real {I K : Type*} [Fintype I] [Fintype K] (x : I → ℝ) (L : K → ℝ) (A3 A4 : I → K → K → ℝ) (A5 : I → K → ℝ) :
    (∑ i, x i * ∑ r5, (∑ r4, (∑ r3, L r3 * A3 i r3 r4) * A4 i r4 r5) * A5 i r5)
      = ∑ r3, (∑ i, x i * ∑ r4, A3 i r3 r4 * ∑ r5, A4 i r4 r5 * A5 i r5) * L r3 := by
  refine Eq.trans ?_ (swap_real x (fun i r3 => ∑ r4, A3 i r3 r4 * ∑ r5, A4 i r4 r5 * A5 i r5) L).symm
  refine Finset.sum_congr rfl fun i _ => ?_
  rw [fold_real]
  exact congrArg _ (Finset.sum_congr rfl fun r3 _ => mul_comm _ _)

/-! ## The two results -/

/-- The three base-16 digits of an input column `i < 4096`, most significant first. -/
abbrev d3 (i : Fin 4096) : Fin 16 := ⟨i.val / 256, by have := i.isLt; omega⟩
abbrev d4 (i : Fin 4096) : Fin 16 := ⟨i.val / 16 % 16, by have := i.isLt; omega⟩
abbrev d5 (i : Fin 4096) : Fin 16 := ⟨i.val % 16, by have := i.isLt; omega⟩

abbrev Core := (⟨3, ![64, 16, 64]⟩ : Shape).Idx → EReal
abbrev LastCore := (⟨3, ![64, 16, 1]⟩ : Shape).Idx → EReal

/-- The right fold of the last three cores: `R (r3, i)`. -/
def tail (C3 C4 : Core) (C5 : LastCore) (r3 : Fin 64) (i : Fin 4096) : EReal :=
  ∑ r4 : Fin 64, C3 (ix3 r3 (d3 i) r4) * ∑ r5 : Fin 64, C4 (ix3 r4 (d4 i) r5) * C5 (ix3 r5 (d5 i) (0 : Fin 1))

/-- The left fold continued from the left half `L` through the last three cores: `W (o, i)`. -/
def weight (L : (⟨2, ![4096, 64]⟩ : Shape).Idx → EReal) (C3 C4 : Core) (C5 : LastCore) (o i : Fin 4096) : EReal :=
  ∑ r5 : Fin 64, (∑ r4 : Fin 64, (∑ r3 : Fin 64, L (ix2 o r3) * C3 (ix3 r3 (d3 i) r4)) * C4 (ix3 r4 (d4 i) r5))
    * C5 (ix3 r5 (d5 i) (0 : Fin 1))

/-- `x · Wᵀ + b`. -/
def refOut (X : (⟨2, ![8192, 4096]⟩ : Shape).Idx → EReal) (L : (⟨2, ![4096, 64]⟩ : Shape).Idx → EReal) (C3 C4 : Core) (C5 : LastCore)
    (B : (⟨1, ![4096]⟩ : Shape).Idx → EReal) : (⟨2, ![8192, 4096]⟩ : Shape).Idx → EReal := fun j =>
  (∑ i : Fin 4096, X (ix2 (j 0) i) * weight L C3 C4 C5 (j 1) i) + B (ix1 (j 1))

/-- `(x · Rᵀ) · Lᵀ + b`. -/
def kerOut (X : (⟨2, ![8192, 4096]⟩ : Shape).Idx → EReal) (L : (⟨2, ![4096, 64]⟩ : Shape).Idx → EReal) (C3 C4 : Core) (C5 : LastCore)
    (B : (⟨1, ![4096]⟩ : Shape).Idx → EReal) : (⟨2, ![8192, 4096]⟩ : Shape).Idx → EReal := fun j =>
  (∑ r : Fin 64, (∑ i : Fin 4096, X (ix2 (j 0) i) * tail C3 C4 C5 r i) * L (ix2 (j 1) r)) + B (ix1 (j 1))

/-- For real entries the two thin products are the layer with the folded weight. (The bias may be anything.) -/
theorem kerOut_eq_refOut (X : (⟨2, ![8192, 4096]⟩ : Shape).Idx → EReal) (L : (⟨2, ![4096, 64]⟩ : Shape).Idx → EReal) (C3 C4 : Core)
    (C5 : LastCore) (B : (⟨1, ![4096]⟩ : Shape).Idx → EReal)
    (hX : IsReal X) (hL : IsReal L) (h3 : IsReal C3) (h4 : IsReal C4) (h5 : IsReal C5) :
    kerOut X L C3 C4 C5 B = refOut X L C3 C4 C5 B := by
  obtain ⟨X', rfl⟩ := hX.exists_fun
  obtain ⟨L', rfl⟩ := hL.exists_fun
  obtain ⟨C3', rfl⟩ := h3.exists_fun
  obtain ⟨C4', rfl⟩ := h4.exists_fun
  obtain ⟨C5', rfl⟩ := h5.exists_fun
  funext j
  unfold kerOut refOut tail weight
  refine congrArg (· + B (ix1 (j 1))) ?_
  simp only [← EReal.coe_mul, ← SumSwap.coe_sum]
  exact congrArg _ (chain_real (fun i => X' (ix2 (j 0) i)) (fun r => L' (ix2 (j 1) r))
    (fun i r3 r4 => C3' (ix3 r3 (d3 i) r4)) (fun i r4 r5 => C4' (ix3 r4 (d4 i) r5))
    (fun i r5 => C5' (ix3 r5 (d5 i) (0 : Fin 1)))).symm

end Cert.TTChain

end
-- ==== Proof.RefRead.lean ====
/-
  The reference, read entry by entry. The reference folds the six cores left to right — a reshape to `(·) × 64` and a
  product with the next core laid out as `64 × (16 · 64)`, five times — reshapes the result to the 4096 × 4096 weight
  and returns `x · Wᵀ + b`. The first two products build the left half `L` (4096 × 64, kept here as one term). Each
  later stage is read at coordinates: a reshape moves the flat position `(row, a · 64 + r)` of one product to the row
  `row · 16 + a`, column `r` of the next product's left operand, so the row index of stage `n` accumulates one more
  base-16 digit of the input column, and the entry `(o, i)` of the weight is `TTChain.weight L G3 G4 G5 o i`.
-/
import proofs.«179713_j91053306675883_2_alg».proof.Proof.Gen.ReferenceIdeal.Read
import proofs.«179713_j91053306675883_2_alg».proof.Proof.TTAlgebra

noncomputable section

open scoped BigOperators

namespace Cert.ReferenceIdeal.RefValue

open Cert.ReferenceIdeal Cert.ReferenceIdeal.Gen Cert.ReferenceIdeal.Read Idealize.ShloMosaic Idealize.ShloMosaic.ValueIdx Cert.TTChain

variable (x0 : (⟨S8192x4096, .f32⟩ : BufTy).Contents (Elt Ideal)) (x1 : (⟨S1x16x64, .f32⟩ : BufTy).Contents (Elt Ideal))
  (x2 x3 x4 x5 : (⟨S64x16x64, .f32⟩ : BufTy).Contents (Elt Ideal)) (x6 : (⟨S64x16x1, .f32⟩ : BufTy).Contents (Elt Ideal))
  (x7 : (⟨S4096, .f32⟩ : BufTy).Contents (Elt Ideal))

/-- A core laid out as `64 × (16 · 64)`, at `(r, a · 64 + r')`, is the core at `(r, a, r')`. -/
theorem core_flat (x : (⟨S64x16x64, .f32⟩ : BufTy).Contents (Elt Ideal)) (r : Fin 64) (q : Fin 1024) (a : Fin 16) (r' : Fin 64)
    (h : q.val = a.val * 64 + r'.val) :
    shapeCast S64x1024 x shapeCasts_S64x16x64_S64x1024 (ix2 r q) = x (ix3 r a r') :=
  shapeCast_apply x shapeCasts_S64x16x64_S64x1024 (ix2 r q) (ix3 r a r') (by
    rw [Shape.rowMajor_val_three, Shape.rowMajor_val_two]
    show (r.val * 16 + a.val) * 64 + r'.val = r.val * 1024 + q.val
    omega)

/-- The third product at `(o, a3 · 64 + r4)`. -/
theorem v8_at (o : Fin 4096) (q : Fin 1024) (a3 : Fin 16) (r4 : Fin 64) (h : q.val = a3.val * 64 + r4.val) :
    val_main_v8 (F := Ideal) x1 x2 x3 x4 (ix2 o q)
      = ∑ r3 : Fin 64, val_main_v6 (F := Ideal) x1 x2 x3 (ix2 o r3) * x4 (ix3 r3 a3 r4) := by
  rw [val_main_v8_apply]
  refine Finset.sum_congr rfl fun r3 _ => ?_
  have e1 : lidx_main_v8 (ix2 o q) r3 = ix2 o r3 := funext fun d => Fin.ext (by match d with | ⟨0, _⟩ => rfl | ⟨1, _⟩ => rfl)
  have e2 : ridx_main_v8 (ix2 o q) r3 = ix2 r3 q := funext fun d => Fin.ext (by match d with | ⟨0, _⟩ => rfl | ⟨1, _⟩ => rfl)
  rw [e1, e2]
  exact congrArg _ (core_flat x4 r3 q a3 r4 h)

/-- Its reshape to `65536 × 64` at row `o · 16 + a3`. -/
theorem v9_at (p : Fin 65536) (r4 : Fin 64) (o : Fin 4096) (a3 : Fin 16) (hp : p.val = o.val * 16 + a3.val) :
    val_main_v9 (F := Ideal) x1 x2 x3 x4 (ix2 p r4)
      = ∑ r3 : Fin 64, val_main_v6 (F := Ideal) x1 x2 x3 (ix2 o r3) * x4 (ix3 r3 a3 r4) := by
  rw [val_main_v9_apply]
  have e : idx_main_v9 (ix2 p r4) = ix2 o (⟨a3.val * 64 + r4.val, by omega⟩ : Fin 1024) := funext fun d => Fin.ext (by
    match d with
    | ⟨0, _⟩ => show (p.val * 64 + r4.val) / 1024 = o.val; omega
    | ⟨1, _⟩ => show (p.val * 64 + r4.val) % 1024 = a3.val * 64 + r4.val; omega)
  rw [e]
  exact v8_at x1 x2 x3 x4 o _ a3 r4 rfl

/-- The fourth product at `(o · 16 + a3, a4 · 64 + r5)`. -/
theorem v11_at (p : Fin 65536) (q : Fin 1024) (o : Fin 4096) (a3 a4 : Fin 16) (r5 : Fin 64)
    (hp : p.val = o.val * 16 + a3.val) (hq : q.val = a4.val * 64 + r5.val) :
    val_main_v11 (F := Ideal) x1 x2 x3 x4 x5 (ix2 p q)
      = ∑ r4 : Fin 64, (∑ r3 : Fin 64, val_main_v6 (F := Ideal) x1 x2 x3 (ix2 o r3) * x4 (ix3 r3 a3 r4)) * x5 (ix3 r4 a4 r5) := by
  rw [val_main_v11_apply]
  refine Finset.sum_congr rfl fun r4 _ => ?_
  have e1 : lidx_main_v11 (ix2 p q) r4 = ix2 p r4 := funext fun d => Fin.ext (by match d with | ⟨0, _⟩ => rfl | ⟨1, _⟩ => rfl)
  have e2 : ridx_main_v11 (ix2 p q) r4 = ix2 r4 q := funext fun d => Fin.ext (by match d with | ⟨0, _⟩ => rfl | ⟨1, _⟩ => rfl)
  rw [e1, e2, v9_at x1 x2 x3 x4 p r4 o a3 hp]
  exact congrArg _ (core_flat x5 r4 q a4 r5 hq)

/-- Its reshape to `1048576 × 64` at row `(o · 16 + a3) · 16 + a4`. -/
theorem v12_at (P : Fin 1048576) (r5 : Fin 64) (o : Fin 4096) (a3 a4 : Fin 16) (hP : P.val = (o.val * 16 + a3.val) * 16 + a4.val) :
    val_main_v12 (F := Ideal) x1 x2 x3 x4 x5 (ix2 P r5)
      = ∑ r4 : Fin 64, (∑ r3 : Fin 64, val_main_v6 (F := Ideal) x1 x2 x3 (ix2 o r3) * x4 (ix3 r3 a3 r4)) * x5 (ix3 r4 a4 r5) := by
  rw [val_main_v12_apply]
  have e : idx_main_v12 (ix2 P r5) = ix2 (⟨o.val * 16 + a3.val, by omega⟩ : Fin 65536) (⟨a4.val * 64 + r5.val, by omega⟩ : Fin 1024) :=
    funext fun d => Fin.ext (by
      match d with
      | ⟨0, _⟩ => show (P.val * 64 + r5.val) / 1024 = o.val * 16 + a3.val; omega
      | ⟨1, _⟩ => show (P.val * 64 + r5.val) % 1024 = a4.val * 64 + r5.val; omega)
  rw [e]
  exact v11_at x1 x2 x3 x4 x5 _ _ o a3 a4 r5 rfl rfl

/-- The last core as `64 × 16`, at `(r5, a5)`. -/
theorem v13_at (r5 : Fin 64) (a5 : Fin 16) : val_main_v13 (F := Ideal) x6 (ix2 r5 a5) = x6 (ix3 r5 a5 (0 : Fin 1)) := by
  rw [val_main_v13_apply]
  exact congrArg x6 (funext fun d => Fin.ext (by
    match d with
    | ⟨0, _⟩ => show (r5.val * 16 + a5.val) / 16 = r5.val; omega
    | ⟨1, _⟩ => show (r5.val * 16 + a5.val) / 1 % 16 = a5.val; omega
    | ⟨2, _⟩ => rfl))

/-- The fifth product at `((o · 16 + a3) · 16 + a4, a5)`. -/
theorem v14_at (P : Fin 1048576) (a5 : Fin 16) (o : Fin 4096) (a3 a4 : Fin 16) (hP : P.val = (o.val * 16 + a3.val) * 16 + a4.val) :
    val_main_v14 (F := Ideal) x1 x2 x3 x4 x5 x6 (ix2 P a5)
      = ∑ r5 : Fin 64, (∑ r4 : Fin 64, (∑ r3 : Fin 64, val_main_v6 (F := Ideal) x1 x2 x3 (ix2 o r3) * x4 (ix3 r3 a3 r4)) * x5 (ix3 r4 a4 r5))
          * x6 (ix3 r5 a5 (0 : Fin 1)) := by
  rw [val_main_v14_apply]
  refine Finset.sum_congr rfl fun r5 _ => ?_
  have e1 : lidx_main_v14 (ix2 P a5) r5 = ix2 P r5 := funext fun d => Fin.ext (by match d with | ⟨0, _⟩ => rfl | ⟨1, _⟩ => rfl)
  have e2 : ridx_main_v14 (ix2 P a5) r5 = ix2 r5 a5 := funext fun d => Fin.ext (by match d with | ⟨0, _⟩ => rfl | ⟨1, _⟩ => rfl)
  rw [e1, e2, v12_at x1 x2 x3 x4 x5 P r5 o a3 a4 hP, v13_at x6 r5 a5]

/-- The weight at `(o, i)`: the fold continued from the left half through the last three cores. -/
theorem v15_at (o i : Fin 4096) :
    val_main_v15 (F := Ideal) x1 x2 x3 x4 x5 x6 (ix2 o i) = weight (val_main_v6 (F := Ideal) x1 x2 x3) x4 x5 x6 o i := by
  rw [val_main_v15_apply]
  have hi := i.isLt
  have e : idx_main_v15 (ix2 o i) = ix2 (⟨(o.val * 16 + i.val / 256) * 16 + i.val / 16 % 16, by omega⟩ : Fin 1048576) (d5 i) :=
    funext fun d => Fin.ext (by
      match d with
      | ⟨0, _⟩ => show (o.val * 4096 + i.val) / 16 = (o.val * 16 + i.val / 256) * 16 + i.val / 16 % 16; omega
      | ⟨1, _⟩ => show (o.val * 4096 + i.val) % 16 = i.val % 16; omega)
  rw [e]
  exact v14_at x1 x2 x3 x4 x5 x6 _ (d5 i) o (d3 i) (d4 i) rfl

/-- The reference's result is `x · Wᵀ + b` with the folded weight. -/
theorem result_eq :
    val_main_v20 (F := Ideal) x0 x1 x2 x3 x4 x5 x6 x7 = refOut x0 (val_main_v6 (F := Ideal) x1 x2 x3) x4 x5 x6 x7 := by
  funext j
  rw [val_main_v20_apply, val_main_v17_apply, val_main_v19_apply, val_main_v18_apply]
  unfold refOut
  refine congrArg₂ (· + ·) (Finset.sum_congr rfl fun k _ => ?_) (congrArg x7 (funext fun d => Fin.ext (by match d with | ⟨0, _⟩ => rfl)))
  refine congrArg₂ (· * ·) (congrArg x0 (funext fun d => Fin.ext (by match d with | ⟨0, _⟩ => rfl | ⟨1, _⟩ => rfl))) ?_
  rw [val_main_v16_apply]
  have e : idx_main_v16 (ridx_main_v17 j k) = ix2 (j 1) k := funext fun d => Fin.ext (by match d with | ⟨0, _⟩ => rfl | ⟨1, _⟩ => rfl)
  rw [e]
  exact v15_at x1 x2 x3 x4 x5 x6 (j 1) k

/-- The left half is real when the first three cores are. -/
theorem left_real (h1 : IsReal x1) (h2 : IsReal x2) (h3 : IsReal x3) : IsReal (val_main_v6 (F := Ideal) x1 x2 x3) := by
  intro j
  rw [val_main_v6_apply, val_main_v5_apply]
  refine isReal_sum_mul _ _ (fun k => ?_) (fun k => ?_)
  · rw [val_main_v3_apply, val_main_v2_apply]
    refine isReal_sum_mul _ _ (fun k' => ?_) (fun k' => ?_)
    · rw [val_main_v0_apply]; exact h1 _
    · rw [val_main_v1_apply]; exact h2 _
  · rw [val_main_v4_apply]; exact h3 _

end Cert.ReferenceIdeal.RefValue

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibTransposedMatmul.lean ====
/-
  A matrix product `[M, K] · [N, K]ᵀ` on the extended reals — both operands contracted on their LAST axis —
  accumulated into the zero matrix, read at the entry `(p, q)`: the sum over `k : Fin K` of `l (p, k) · r (q, k)`.

  The library states a `tpu.matmul` at an output index as a sum over the contraction shape's index set, with the
  operands read at `lhsIdx` / `rhsIdx`; for the dimension numbers `⟨[1], [1], [0], [0], [], []⟩` that index set is
  one axis of extent `K`, the left index is `(p, k)` and the right index is `(q, k)`. The statement takes any
  dimension record equal to `DotDims.transposedRhs M K N` (a record is determined by its six lists, so a printed one
  with these lists is equal to it by `rfl`).
-/
import Idealize.ShloMosaic.PureOps.Ideal.Laws
import Idealize.ShloMosaic.Lib.ValueIdx

noncomputable section

open scoped BigOperators

namespace Cert.LibTransposedMatmul

open Idealize.ShloMosaic Idealize.ShloMosaic.ValueIdx

/-- The left operand's index at output `(p, q)` and contraction coordinate `k` is `(p, k)`. -/
theorem transposedRhs_lhsIdx {M K N : ℕ} (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl (ix2 p q) _).trans
        (contrEquiv1_symm_val (DotDims.transposedRhs M K N) K rfl rfl k))

/-- The right operand's index there is `(q, k)`. -/
theorem transposedRhs_rhsIdx {M K N : ℕ} (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => rfl
    | ⟨1, _⟩ =>
      exact ((DotDims.transposedRhs M K N).rhsIdx_val_of_single rfl (ix2 p q) _).trans
        (contrEquiv1_symm_val (DotDims.transposedRhs M K N) K rfl rfl k))

/-- `[M, K] · [N, K]ᵀ` into the zero accumulator, at `(p, q)`, is `∑ k, l (p, k) · r (q, k)`. -/
theorem matmul_transposedRhs_zero_apply {M K N : ℕ} {φ₁ φ₂ : FTy}
    (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (p : Fin M) (q : Fin N) :
    FloatOps.matmul D prec l r (constant ⟨2, ![M, N]⟩ .f32 0x00000000#32) (ix2 p q)
      = ∑ k : Fin K, l (ix2 p k) * r (ix2 q k) := by
  subst hD
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end Cert.LibTransposedMatmul

end
-- ==== Proof.KerBody.lean ====
/-
  The kernel body at one entry. On a block of 256 rows of `x` the body computes `(x · Rᵀ) · LT + b`: a product of the
  block (256 × 4096) with `R` (64 × 4096) contracted on the last axis of both, a product of the result (256 × 64) with
  `LT` (64 × 4096), and the bias row added to every row. Changes of float format are the identity on the extended reals.
-/
import proofs.«179713_j91053306675883_2_alg».proof.Proof.Gen.KernelIdeal.Skeleton
import proofs.«179713_j91053306675883_2_alg».proof.Proof.LibPlainMatmul
import proofs.«179713_j91053306675883_2_alg».proof.Proof.LibTransposedMatmul
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- Entry `(p, q)` of the body's result: `∑ r, (∑ k, x (p, k) · R (r, k)) · LT (r, q) + b (0, q)`. -/
theorem pay_at (v0 : Vec Ideal S256x4096 .f32) (v2 v6 : Vec Ideal S64x4096 .bf16) (v9 : Vec Ideal S1x4096 .f32)
    (p : Fin 256) (q : Fin 4096) :
    k0_pay1 (F := Ideal) v0 v2 v6 v9 (ix2 p q)
      = (∑ r : Fin 64, (∑ k : Fin 4096, v0 (ix2 p k) * v2 (ix2 r k)) * v6 (ix2 r q)) + v9 (ix2 (0 : Fin 1) q) := by
  unfold k0_pay1
  simp only [matmul]
  rw [addf_apply]
  refine congrArg₂ (· + ·) ?_ ?_
  · rw [LibPlainMatmul.matmul_plain_zero_apply dot_S256x64_S64x4096_S256x4096_1_0_0_1_n_n rfl]
    refine Finset.sum_congr rfl fun r _ => ?_
    rw [truncf_apply, LibTransposedMatmul.matmul_transposedRhs_zero_apply dot_S256x4096_S64x4096_S256x64_1_1_0_0_n_n rfl]
    simp only [truncf_apply, shapeCast_self]
  · rw [broadcastTo_apply _ broadcasts_S1x4096_S256x4096 (ix2 p q) (ix2 (0 : Fin 1) q) (fun a => by
      match a with
      | ⟨0, _⟩ => show 0 = if (1 : Nat) = 1 then 0 else _; rw [if_pos rfl]
      | ⟨1, _⟩ => show q.val = if (4096 : Nat) = 1 then 0 else q.val; rw [if_neg (by decide)]), shapeCast_self]

/-- The same function on whole arrays: `(X · Rᵀ) · LT + b` for `X : 8192 × 4096`. -/
def twoStep (X : S8192x4096.Idx → EReal) (Rm LT : S64x4096.Idx → EReal) (Bv : S1x4096.Idx → EReal) : S8192x4096.Idx → EReal := fun j =>
  (∑ r : Fin 64, (∑ k : Fin 4096, X (ix2 (j 0) k) * Rm (ix2 r k)) * LT (ix2 r (j 1))) + Bv (ix2 (0 : Fin 1) (j 1))

/-- An entry of the result depends on one row of `x` only: on a block whose row `p` is row `P` of `X`, and on
    operands that are `R`, `LT` and the bias row, the body's entry `(p, q)` is entry `(P, q)` of `twoStep`. -/
theorem pay_block (v0 : Vec Ideal S256x4096 .f32) (v2 v6 : Vec Ideal S64x4096 .bf16) (v9 : Vec Ideal S1x4096 .f32)
    (X : S8192x4096.Idx → EReal) (Rm LT : S64x4096.Idx → EReal) (Bv : S1x4096.Idx → EReal)
    (p : Fin 256) (q : Fin 4096) (P : Fin 8192)
    (h0 : ∀ k : Fin 4096, v0 (ix2 p k) = X (ix2 P k)) (h1 : ∀ (r : Fin 64) (k : Fin 4096), v2 (ix2 r k) = Rm (ix2 r k))
    (h2 : ∀ r : Fin 64, v6 (ix2 r q) = LT (ix2 r q)) (h3 : v9 (ix2 (0 : Fin 1) q) = Bv (ix2 (0 : Fin 1) q)) :
    k0_pay1 (F := Ideal) v0 v2 v6 v9 (ix2 p q) = twoStep X Rm LT Bv (ix2 P q) := by
  rw [pay_at]
  show _ = (∑ r : Fin 64, (∑ k : Fin 4096, X (ix2 P k) * Rm (ix2 r k)) * LT (ix2 r q)) + Bv (ix2 (0 : Fin 1) q)
  simp only [h0, h1, h2, h3]

end Cert.KernelIdeal.Body

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«179713_j91053306675883_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.LibReshapeAt.lean ====
/-
  A row-major reshape read at coordinates. A reshape keeps an element's row-major position, so the entry `(p', q')` of
  the `P' × Q'` result is the operand's entry at the same position: the entry `(p, q)` of a `P × Q` operand when
  `p · Q + q = p' · Q' + q'`, the entry `(a, b, c)` of an `A × B × C` operand when `(a · B + b) · C + c = p' · Q' + q'`.
  The position equations are left to the caller: with literal extents they are linear arithmetic.
-/
import Idealize.ShloMosaic.Lib.Pipeline.Value
import Idealize.ShloMosaic.Lib.ValueIdx

noncomputable section

namespace Cert.LibReshapeAt

open Idealize.ShloMosaic Idealize.ShloMosaic.ValueIdx

/-- A rank-2 array reshaped to rank 2, at `(p', q')`. -/
theorem cast22 {α : Type} {P Q P' Q' : ℕ} (x : (⟨2, ![P, Q]⟩ : Shape).Idx → α)
    (h : (⟨2, ![P, Q]⟩ : Shape).ShapeCasts ⟨2, ![P', Q']⟩) (p' : Fin P') (q' : Fin Q') (p : Fin P) (q : Fin Q)
    (hk : p.val * Q + q.val = p'.val * Q' + q'.val) :
    shapeCast ⟨2, ![P', Q']⟩ x h (ix2 p' q') = x (ix2 p q) :=
  shapeCast_apply x h (ix2 p' q') (ix2 p q) (by rw [Shape.rowMajor_val_two, Shape.rowMajor_val_two]; exact hk)

/-- A rank-3 array reshaped to rank 2, at `(p', q')`. -/
theorem cast32 {α : Type} {A B C P' Q' : ℕ} (x : (⟨3, ![A, B, C]⟩ : Shape).Idx → α)
    (h : (⟨3, ![A, B, C]⟩ : Shape).ShapeCasts ⟨2, ![P', Q']⟩) (p' : Fin P') (q' : Fin Q') (a : Fin A) (b : Fin B) (c : Fin C)
    (hk : (a.val * B + b.val) * C + c.val = p'.val * Q' + q'.val) :
    shapeCast ⟨2, ![P', Q']⟩ x h (ix2 p' q') = x (ix3 a b c) :=
  shapeCast_apply x h (ix2 p' q') (ix3 a b c) (by rw [Shape.rowMajor_val_three, Shape.rowMajor_val_two]; exact hk)

/-- A vector reshaped to one row, at `(0, q)`. -/
theorem cast12 {α : Type} {N : ℕ} (x : (⟨1, ![N]⟩ : Shape).Idx → α)
    (h : (⟨1, ![N]⟩ : Shape).ShapeCasts ⟨2, ![1, N]⟩) (q : Fin N) :
    shapeCast ⟨2, ![1, N]⟩ x h (ix2 (0 : Fin 1) q) = x (ix1 q) :=
  shapeCast_apply x h (ix2 (0 : Fin 1) q) (ix1 q) (by
    rw [Shape.rowMajor_val_one, Shape.rowMajor_val_two]
    show q.val = 0 * N + q.val
    omega)

end Cert.LibReshapeAt

end
-- ==== Proof.KerHost.lean ====
/-
  What the region finds in its operand arrays. Before the call the program folds the cores on the host: the left half
  `L` (4096 × 64) exactly as the reference's first two products do, transposed to `LT` (64 × 4096); the right fold
  `R` (64 × 4096) of the last three cores — the last core as `64 × 16`, the fifth as `(64 · 16) × 64` times it, the
  result re-laid as `64 × 256`, the fourth as `(64 · 16) × 64` times that, re-laid as `64 × 4096`; and the bias as one
  row. Read at an entry, `R (r3, i)` is `TTChain.tail` at the base-16 digits of `i`, and `twoStep` of these arrays
  is `TTChain.kerOut` of the arguments.
-/
import proofs.«179713_j91053306675883_2_alg».proof.Proof.Gen.KernelIdeal.Frame
import proofs.«179713_j91053306675883_2_alg».proof.Proof.Gen.ReferenceIdeal.Read
import proofs.«179713_j91053306675883_2_alg».proof.Proof.KerBody
import proofs.«179713_j91053306675883_2_alg».proof.Proof.LibPlainDot
import proofs.«179713_j91053306675883_2_alg».proof.Proof.LibReshapeAt
import proofs.«179713_j91053306675883_2_alg».proof.Proof.TTAlgebra
import Idealize.ShloMosaic.Lib.StableHlo.Run

noncomputable section

open scoped BigOperators

namespace Cert.KernelIdeal.HostValue

open Cert.KernelIdeal Cert.KernelIdeal.Gen Idealize.ShloMosaic Idealize.ShloMosaic.TcCoe Idealize.SL.Sem Idealize.ShloMosaic.ValueIdx
open Cert.TTChain Cert.KernelIdeal.Body

/-- The left half as the host computes it: two reshape-and-multiply steps. -/
def leftK (x1 : FVec Ideal S1x16x64 .f32) (x2 x3 : FVec Ideal S64x16x64 .f32) : FVec Ideal S4096x64 .f32 :=
  shapeCast S4096x64 (Host.dotGeneral dot_S256x64_S64x1024_S256x1024_1_0_0_1_n_n none
    (shapeCast S256x64 (Host.dotGeneral dot_S16x64_S64x1024_S16x1024_1_0_0_1_n_n none
      (shapeCast S16x64 x1 shapeCasts_S1x16x64_S16x64) (shapeCast S64x1024 x2 shapeCasts_S64x16x64_S64x1024)) shapeCasts_S16x1024_S256x64)
    (shapeCast S64x1024 x3 shapeCasts_S64x16x64_S64x1024)) shapeCasts_S256x1024_S4096x64

/-- It is the reference's left half, term for term. -/
theorem leftK_eq (x1 : FVec Ideal S1x16x64 .f32) (x2 x3 : FVec Ideal S64x16x64 .f32) :
    leftK x1 x2 x3 = Cert.ReferenceIdeal.Read.val_main_v6 (F := Ideal) x1 x2 x3 := by
  unfold leftK
  rw [show Host.dotGeneral dot_S16x64_S64x1024_S16x1024_1_0_0_1_n_n none
        (shapeCast S16x64 x1 shapeCasts_S1x16x64_S16x64) (shapeCast S64x1024 x2 shapeCasts_S64x16x64_S64x1024)
      = Cert.ReferenceIdeal.Read.val_main_v2 (F := Ideal) x1 x2 from rfl]
  rw [show shapeCast S256x64 (Cert.ReferenceIdeal.Read.val_main_v2 (F := Ideal) x1 x2) shapeCasts_S16x1024_S256x64
      = Cert.ReferenceIdeal.Read.val_main_v3 (F := Ideal) x1 x2 from rfl]
  rw [show Host.dotGeneral dot_S256x64_S64x1024_S256x1024_1_0_0_1_n_n none (Cert.ReferenceIdeal.Read.val_main_v3 (F := Ideal) x1 x2)
        (shapeCast S64x1024 x3 shapeCasts_S64x16x64_S64x1024)
      = Cert.ReferenceIdeal.Read.val_main_v5 (F := Ideal) x1 x2 x3 from rfl]
  rfl

/-- The right fold as the host computes it. -/
def rightK (x4 x5 : FVec Ideal S64x16x64 .f32) (x6 : FVec Ideal S64x16x1 .f32) : FVec Ideal S64x4096 .f32 :=
  shapeCast S64x4096 (Host.dotGeneral dot_S1024x64_S64x256_S1024x256_1_0_0_1_n_n none
    (shapeCast S1024x64 x4 shapeCasts_S64x16x64_S1024x64)
    (shapeCast S64x256 (Host.dotGeneral dot_S1024x64_S64x16_S1024x16_1_0_0_1_n_n none
      (shapeCast S1024x64 x5 shapeCasts_S64x16x64_S1024x64) (shapeCast S64x16 x6 shapeCasts_S64x16x1_S64x16)) shapeCasts_S1024x16_S64x256))
    shapeCasts_S1024x256_S64x4096

/-- `R (r3, i)`: the fourth core at `(r3, a3, ·)` against the fifth at `(·, a4, ·)` against the last at `(·, a5)`. -/
theorem rightK_at (x4 x5 : FVec Ideal S64x16x64 .f32) (x6 : FVec Ideal S64x16x1 .f32) (r3 : Fin 64) (i : Fin 4096) :
    rightK x4 x5 x6 (ix2 r3 i) = tail x4 x5 x6 r3 i := by
  have hi := i.isLt
  unfold rightK tail
  rw [LibReshapeAt.cast22 _ shapeCasts_S1024x256_S64x4096 r3 i (⟨r3.val * 16 + i.val / 256, by omega⟩ : Fin 1024)
    (⟨i.val % 256, by omega⟩ : Fin 256) (by show (r3.val * 16 + i.val / 256) * 256 + i.val % 256 = r3.val * 4096 + i.val; omega)]
  rw [LibPlainDot.dot_plain_apply dot_S1024x64_S64x256_S1024x256_1_0_0_1_n_n rfl]
  refine Finset.sum_congr rfl fun r4 _ => ?_
  refine congrArg₂ (· * ·) ?_ ?_
  · exact LibReshapeAt.cast32 x4 shapeCasts_S64x16x64_S1024x64 (⟨r3.val * 16 + i.val / 256, by omega⟩ : Fin 1024) r4 r3 (d3 i) r4
      (by show (r3.val * 16 + i.val / 256) * 64 + r4.val = (r3.val * 16 + i.val / 256) * 64 + r4.val; rfl)
  · refine (LibReshapeAt.cast22 _ shapeCasts_S1024x16_S64x256 r4 (⟨i.val % 256, by omega⟩ : Fin 256)
      (⟨r4.val * 16 + i.val / 16 % 16, by omega⟩ : Fin 1024) (d5 i)
      (by show (r4.val * 16 + i.val / 16 % 16) * 16 + i.val % 16 = r4.val * 256 + i.val % 256; omega)).trans ?_
    rw [LibPlainDot.dot_plain_apply dot_S1024x64_S64x16_S1024x16_1_0_0_1_n_n rfl]
    refine Finset.sum_congr rfl fun r5 _ => ?_
    refine congrArg₂ (· * ·) ?_ ?_
    · exact LibReshapeAt.cast32 x5 shapeCasts_S64x16x64_S1024x64 (⟨r4.val * 16 + i.val / 16 % 16, by omega⟩ : Fin 1024) r5 r4 (d4 i) r5
        (by show (r4.val * 16 + i.val / 16 % 16) * 64 + r5.val = (r4.val * 16 + i.val / 16 % 16) * 64 + r5.val; rfl)
    · exact LibReshapeAt.cast32 x6 shapeCasts_S64x16x1_S64x16 r5 (d5 i) r5 (d5 i) (0 : Fin 1)
        (by show (r5.val * 16 + i.val % 16) * 1 + 0 = r5.val * 16 + i.val % 16; omega)

/-- A 4096 × 64 matrix transposed, at `(r, o)`. -/
theorem transposed_at (Lm : FVec Ideal S4096x64 .f32) (r : Fin 64) (o : Fin 4096) :
    transpose S64x4096 [1, 0] Lm transposes_S4096x64_S64x4096_1_0 (ix2 r o) = Lm (ix2 o r) :=
  transpose_apply [1, 0] Lm transposes_S4096x64_S64x4096_1_0 (ix2 r o) (ix2 o r) (fun b => match b with
    | ⟨0, _⟩ => rfl
    | ⟨1, _⟩ => rfl)

variable (m : (ℓ : Loc nD τ sig) → Buf (Elt Ideal) ℓ) (c : Dev nD)

/-- The region's second operand is `R`. -/
theorem V_right : (V m c main_v17 : S64x4096.Idx → EReal)
    = truncf .bf16 (rightK (m ((c : Thread nD τ).loc main_arg4)) (m ((c : Thread nD τ).loc main_arg5)) (m ((c : Thread nD τ).loc main_arg6))) bitsLt_bf16_f32 := by
  dsimp only [Gen.V, Gen.hostOps0]
  after_results
  rfl

/-- Its third operand is `LT`. -/
theorem V_leftT : (V m c main_v16 : S64x4096.Idx → EReal)
    = truncf .bf16 (transpose S64x4096 [1, 0] (leftK (m ((c : Thread nD τ).loc main_arg1)) (m ((c : Thread nD τ).loc main_arg2)) (m ((c : Thread nD τ).loc main_arg3)))
        transposes_S4096x64_S64x4096_1_0) bitsLt_bf16_f32 := by
  dsimp only [Gen.V, Gen.hostOps0]
  after_results
  rfl

/-- Its fourth operand is the bias as one row. -/
theorem V_bias : (V m c main_v14 : S1x4096.Idx → EReal) = shapeCast S1x4096 (m ((c : Thread nD τ).loc main_arg7)) shapeCasts_S4096_S1x4096 := by
  dsimp only [Gen.V, Gen.hostOps0]
  after_results
  rfl

/-- The body's function of `x`, `R`, `LT` and the bias row is `(x · Rᵀ) · Lᵀ + b` of `x`, the left half, the last three cores
    and the bias. -/
theorem twoStep_eq (X : S8192x4096.Idx → EReal) (x1 : FVec Ideal S1x16x64 .f32) (x2 x3 x4 x5 : FVec Ideal S64x16x64 .f32)
    (x6 : FVec Ideal S64x16x1 .f32) (x7 : FVec Ideal S4096 .f32) :
    twoStep X (truncf .bf16 (rightK x4 x5 x6) bitsLt_bf16_f32)
        (truncf .bf16 (transpose S64x4096 [1, 0] (leftK x1 x2 x3) transposes_S4096x64_S64x4096_1_0) bitsLt_bf16_f32)
        (shapeCast S1x4096 x7 shapeCasts_S4096_S1x4096)
      = kerOut X (Cert.ReferenceIdeal.Read.val_main_v6 (F := Ideal) x1 x2 x3) x4 x5 x6 x7 := by
  funext j
  obtain ⟨n, o, rfl⟩ : ∃ (n : Fin 8192) (o : Fin 4096), j = ix2 n o := ⟨j 0, j 1, eq_ix2 j⟩
  show (∑ r : Fin 64, (∑ k : Fin 4096, X (ix2 n k) * truncf .bf16 (rightK x4 x5 x6) bitsLt_bf16_f32 (ix2 r k))
        * truncf .bf16 (transpose S64x4096 [1, 0] (leftK x1 x2 x3) transposes_S4096x64_S64x4096_1_0) bitsLt_bf16_f32 (ix2 r o))
      + shapeCast S1x4096 x7 shapeCasts_S4096_S1x4096 (ix2 (0 : Fin 1) o)
    = (∑ r : Fin 64, (∑ i : Fin 4096, X (ix2 n i) * tail x4 x5 x6 r i)
        * Cert.ReferenceIdeal.Read.val_main_v6 (F := Ideal) x1 x2 x3 (ix2 o r)) + x7 (ix1 o)
  refine congrArg₂ (· + ·) (Finset.sum_congr rfl fun r _ => ?_) (LibReshapeAt.cast12 x7 shapeCasts_S4096_S1x4096 o)
  rw [truncf_apply, transposed_at, leftK_eq]
  refine congrArg (· * _) (Finset.sum_congr rfl fun k _ => ?_)
  rw [truncf_apply, rightK_at]

/-- So for the arrays the region finds. -/
theorem twoStep_V :
    twoStep (V m c main_arg0) (V m c main_v17) (V m c main_v16) (V m c main_v14)
      = kerOut (m ((c : Thread nD τ).loc main_arg0))
          (Cert.ReferenceIdeal.Read.val_main_v6 (F := Ideal) (m ((c : Thread nD τ).loc main_arg1)) (m ((c : Thread nD τ).loc main_arg2)) (m ((c : Thread nD τ).loc main_arg3)))
          (m ((c : Thread nD τ).loc main_arg4)) (m ((c : Thread nD τ).loc main_arg5)) (m ((c : Thread nD τ).loc main_arg6))
          (m ((c : Thread nD τ).loc main_arg7)) := by
  rw [V_main_arg0, V_right, V_leftT, V_bias]
  exact twoStep_eq _ _ _ _ _ _ _ _

end Cert.KernelIdeal.HostValue

end
-- ==== Proof.KerArray.lean ====
/-
  From blocks to the array. The grid has 32 points; point `t` reads rows `256 t … 256 t + 255` of `x` (all 4096
  columns), the whole of `R`, `LT` and the bias row, and writes rows `256 t … 256 t + 255` of the result. Since an entry of
  `(x · Rᵀ) · LT + b` depends on one row of `x` only, what point `t` writes is block `t` of that one function of the
  whole arrays; the 32 blocks cover the 8192 rows, so the result array ends holding it.
-/
import proofs.«179713_j91053306675883_2_alg».proof.Proof.Gen.KernelIdeal.Value
import proofs.«179713_j91053306675883_2_alg».proof.Proof.KerBody
import proofs.«179713_j91053306675883_2_alg».proof.Proof.KerHost

noncomputable section

open scoped BigOperators

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)
open Cert.TTChain Cert.KernelIdeal.Body Cert.KernelIdeal.HostValue

variable (m : (ℓ : Loc nD τ sig) → Buf (Elt Ideal) ℓ) (ρ : Dev nD → PrngReg)

theorem origin : (![0, 0] : Fin 2 → Nat) = fun _ => 0 := funext fun a => by fin_cases a <;> rfl

/-- The block indices of the five operands at each of the 32 points: the rows of `x` and of the result move with the
    point, everything else stays at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `(x · Rᵀ) · LT + b` of the arrays the region finds. -/
theorem flushed_eq (c : Dev nD) (t : Fin cfg0.N) :
    (dats m 0 c).flushed 4 t
      = ((cfg0.win 4).blk t).view.read (Elt Ideal) (twoStep (V m c main_arg0) (V m c main_v17) (V m c main_v16) (V m c main_v14)) := by
  rw [Value.flushed4]
  unfold out0_4
  rw [View.canon_unit_zero origin]
  simp only [View.ld_unit_zero (S := S256x4096) origin, View.ld_unit_zero (S := S64x4096) origin, View.ld_unit_zero (S := S1x4096) origin]
  obtain ⟨e00, e01, e10, e11, e20, e21, e30, e31, e40, e41⟩ := block_indices t
  have ht : t.val < 32 := Nat.lt_of_lt_of_eq t.isLt N_0
  funext y
  obtain ⟨p, q, rfl⟩ : ∃ (p : Fin 256) (q : Fin 4096), y = ix2 p q := ⟨y 0, y 1, eq_ix2 y⟩
  have hemb : ((cfg0.win 4).blk t).view.emb (ix2 p q) = ix2 (⟨t.val * 256 + p.val, by omega⟩ : Fin 8192) q := by
    funext a; apply Fin.ext
    match a with
    | ⟨0, _⟩ => show win0_4.index t (0 : Fin 2) * 256 + 1 * p.val = t.val * 256 + p.val; omega
    | ⟨1, _⟩ => show win0_4.index t (1 : Fin 2) * 4096 + 1 * q.val = q.val; omega
  show k0_pay1 (iblk m c 0 t) (iblk m c 1 t) (iblk m c 2 t) (iblk m c 3 t) (ix2 p q)
    = twoStep (V m c main_arg0) (V m c main_v17) (V m c main_v16) (V m c main_v14) (((cfg0.win 4).blk t).view.emb (ix2 p q))
  rw [hemb]
  refine pay_block (iblk m c 0 t) (iblk m c 1 t) (iblk m c 2 t) (iblk m c 3 t) (V m c main_arg0) (V m c main_v17) (V m c main_v16)
    (V m c main_v14) p q (⟨t.val * 256 + p.val, by omega⟩ : Fin 8192) (fun k => ?_) (fun r k => ?_) (fun r => ?_) ?_
  · show V m c main_arg0 (((cfg0.win 0).blk t).view.emb (ix2 p k)) = V m c main_arg0 (ix2 (⟨t.val * 256 + p.val, by omega⟩ : Fin 8192) k)
    refine congrArg (V m c main_arg0) (funext fun a => Fin.ext ?_)
    match a with
    | ⟨0, _⟩ => show win0_0.index t (0 : Fin 2) * 256 + 1 * p.val = t.val * 256 + p.val; omega
    | ⟨1, _⟩ => show win0_0.index t (1 : Fin 2) * 4096 + 1 * k.val = k.val; omega
  · show V m c main_v17 (((cfg0.win 1).blk t).view.emb (ix2 r k)) = V m c main_v17 (ix2 r k)
    refine congrArg (V m c main_v17) (funext fun a => Fin.ext ?_)
    match a with
    | ⟨0, _⟩ => show win0_1.index t (0 : Fin 2) * 64 + 1 * r.val = r.val; omega
    | ⟨1, _⟩ => show win0_1.index t (1 : Fin 2) * 4096 + 1 * k.val = k.val; omega
  · show V m c main_v16 (((cfg0.win 2).blk t).view.emb (ix2 r q)) = V m c main_v16 (ix2 r q)
    refine congrArg (V m c main_v16) (funext fun a => Fin.ext ?_)
    match a with
    | ⟨0, _⟩ => show win0_2.index t (0 : Fin 2) * 64 + 1 * r.val = r.val; omega
    | ⟨1, _⟩ => show win0_2.index t (1 : Fin 2) * 4096 + 1 * q.val = q.val; omega
  · show V m c main_v14 (((cfg0.win 3).blk t).view.emb (ix2 (0 : Fin 1) q)) = V m c main_v14 (ix2 (0 : Fin 1) q)
    refine congrArg (V m c main_v14) (funext fun a => Fin.ext ?_)
    match a with
    | ⟨0, _⟩ => show win0_3.index t (0 : Fin 2) * 1 + 1 * 0 = 0; omega
    | ⟨1, _⟩ => show win0_3.index t (1 : Fin 2) * 4096 + 1 * q.val = q.val; omega

/-- An index of the result array is in point `t`'s block iff each coordinate is in the block's range on its axis. -/
theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v18).slice (win0_4.rect t)).set ↔ _
  rw [View.set_slice_whole, Rect.mem_set_unit]
  exact Iff.rfl

/-- Row `n` of the result is written by point `n / 256`. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ : ∃ t : Fin cfg0.N, t.val = (i 0).val / 256 :=
    ⟨⟨(i 0).val / 256, by rw [show cfg0.N = 32 from N_0]; omega⟩, rfl⟩
  obtain ⟨e00, e01, e10, e11, e20, e21, e30, e31, e40, e41⟩ := block_indices t
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The result array after the run. -/
theorem final (c : Dev nD) :
    (dats m 0 c).arrAt 4 cfg0.N = twoStep (V m c main_arg0) (V m c main_v17) (V m c main_v16) (V m c main_v14) :=
  (dats m 0 c).arrAt_eq_of_cover 4 _ (fun t _ => flushed_eq m c t) cover

/-- The kernel's run: it ends with the result at `(x · Rᵀ) · Lᵀ + b` of the arguments, the arguments unchanged. -/
theorem run : θ_run defs (onTc (τ := τ) (main (F := Ideal))) ⟨m, fun _ => 0, ρ⟩ fun r => ∀ c : Dev nD,
      r.2.mem ((c : Thread nD τ).loc main_v18)
        = kerOut (m ((c : Thread nD τ).loc main_arg0))
            (Cert.ReferenceIdeal.Read.val_main_v6 (F := Ideal) (m ((c : Thread nD τ).loc main_arg1)) (m ((c : Thread nD τ).loc main_arg2)) (m ((c : Thread nD τ).loc main_arg3)))
            (m ((c : Thread nD τ).loc main_arg4)) (m ((c : Thread nD τ).loc main_arg5)) (m ((c : Thread nD τ).loc main_arg6))
            (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (twoStep_V m c)), (h c).2⟩) (Value.run_blocks m ρ)

end Cert.KernelIdeal.ArrayValue

end
-- ==== Proof.Finite.lean ====
/-
  The precondition says every input entry is finite; on the extended reals that is: every entry is a real number.
  The printed predicate compares `|x|` with `+∞` entry by entry (`|x| < +∞` fails exactly at `x = ±∞`), takes the
  conjunction over each array and then over the eight arrays.
-/
import proofs.«179713_j91053306675883_2_alg».proof.Pre_finite_inputs
import proofs.«179713_j91053306675883_2_alg».proof.Proof.TTAlgebra
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx Cert.TTChain

variable [Facts]
open Facts

instance : Subsingleton S_.Idx := ⟨fun _ _ => funext fun d => d.elim0⟩

/-- An extended real whose absolute value is below `+∞` is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The float32 word `0x7F800000` is `+∞`. -/
theorem inf_word : Ideal.ofBits .f32 0x7F800000#32 = (⊤ : EReal) := by simp [Ideal.ofBits, Ideal.ieee]

/-- One entry of the printed comparison `|a| < +∞` being true makes that entry of `a` real. -/
theorem elem_real {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) := by
  have h' : Ideal.cmp .olt (max (a i) (-(a i))) (Ideal.ofBits .f32 0x7F800000#32) = 1#1 := h
  rw [inf_word] at h'
  exact real_of_abs_lt_top _ h'

/-- Under the precondition all eight argument arrays are real-valued. -/
theorem reals_of_pre (a0 : FVec Ideal S8192x4096 .f32) (a1 : FVec Ideal S1x16x64 .f32) (a2 a3 a4 a5 : FVec Ideal S64x16x64 .f32)
    (a6 : FVec Ideal S64x16x1 .f32) (a7 : FVec Ideal S4096 .f32)
    (h : fn (F := Ideal) a0 a1 a2 a3 a4 a5 a6 a7 = fun _ => 1#1) :
    IsReal a0 ∧ IsReal a1 ∧ IsReal a2 ∧ IsReal a3 ∧ IsReal a4 ∧ IsReal a5 ∧ IsReal a6 ∧ IsReal a7 := by
  have h' := congrFun h ix0
  dsimp only [fn, fn_part1, fn_part2] at h'
  obtain ⟨h06, h7⟩ := IntOp.andi_eq_one.1 h'
  obtain ⟨h05, h6⟩ := IntOp.andi_eq_one.1 h06
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h0, h1⟩ := IntOp.andi_eq_one.1 h01
  exact ⟨fun i => elem_real a0 _ i (Host.reduce_andi_all _ _ _ _ ix0 h0 i),
    fun i => elem_real a1 _ i (Host.reduce_andi_all _ _ _ _ ix0 h1 i),
    fun i => elem_real a2 _ i (Host.reduce_andi_all _ _ _ _ ix0 h2 i),
    fun i => elem_real a3 _ i (Host.reduce_andi_all _ _ _ _ ix0 h3 i),
    fun i => elem_real a4 _ i (Host.reduce_andi_all _ _ _ _ ix0 h4 i),
    fun i => elem_real a5 _ i (Host.reduce_andi_all _ _ _ _ ix0 h5 i),
    fun i => elem_real a6 _ i (Host.reduce_andi_all _ _ _ _ ix0 h6 i),
    fun i => elem_real a7 _ i (Host.reduce_andi_all _ _ _ _ ix0 h7 i)⟩

end Cert.Pre_finite_inputs.Finite

end
-- ==== Proof.lean ====
/-
  A linear layer whose 4096 × 4096 weight is a tensor train of six cores (bond rank 64, mode size 16), computed two ways.

  The reference folds the cores left to right into the dense weight `W` and returns `x · Wᵀ + b` for `x : 8192 × 4096`.
  The kernel stops the left fold after three cores — the left half `L : 4096 × 64` — folds the last three cores from the
  right into `R : 64 × 4096`, and computes `(x · Rᵀ) · Lᵀ + b` block of 256 rows by block of 256 rows: two thin products
  through the rank-64 bond instead of one dense one. Since `W = L · R`, the two results agree; on the extended reals this
  needs distributivity and exchanges of finite sums, which hold because the precondition makes every input entry a real
  number. Changes of float format (the kernel's bf16 operands) are the identity on the extended reals, and nothing was
  rewritten between the kernel and its idealized reading, so that claim is trivial.

  The pieces: `TTAlgebra` (the identity, and the two results as functions of the arguments), `RefRead` (the reference's
  result is `refOut`), `KerBody` / `KerHost` / `KerArray` (the kernel's result array is `kerOut`), `Finite` (the
  precondition gives real entries).
-/
import proofs.«179713_j91053306675883_2_alg».proof.Defs
import proofs.«179713_j91053306675883_2_alg».proof.Proof.Gen.Kernel
import proofs.«179713_j91053306675883_2_alg».proof.Proof.Gen.Kernel.Skeleton
import proofs.«179713_j91053306675883_2_alg».proof.Proof.Gen.Kernel.Launch
import proofs.«179713_j91053306675883_2_alg».proof.Proof.Gen.Kernel.Points
import proofs.«179713_j91053306675883_2_alg».proof.Proof.Gen.Kernel.Frame
import proofs.«179713_j91053306675883_2_alg».proof.Proof.Gen.KernelIdeal
import proofs.«179713_j91053306675883_2_alg».proof.Proof.Gen.KernelIdeal.Skeleton
import proofs.«179713_j91053306675883_2_alg».proof.Proof.Gen.KernelIdeal.Launch
import proofs.«179713_j91053306675883_2_alg».proof.Proof.Gen.KernelIdeal.Points
import proofs.«179713_j91053306675883_2_alg».proof.Proof.Gen.KernelIdeal.Frame
import proofs.«179713_j91053306675883_2_alg».proof.Proof.Gen.ReferenceIdeal
import proofs.«179713_j91053306675883_2_alg».proof.Proof.Gen.Pre_finite_inputs
import proofs.«179713_j91053306675883_2_alg».proof.Proof.Gen.KernelIdeal.Value
import proofs.«179713_j91053306675883_2_alg».proof.Proof.Gen.ReferenceIdeal.Run
import proofs.«179713_j91053306675883_2_alg».proof.Proof.Gen.ReferenceIdeal.Read
import proofs.«179713_j91053306675883_2_alg».proof.Proof.TTAlgebra
import proofs.«179713_j91053306675883_2_alg».proof.Proof.RefRead
import proofs.«179713_j91053306675883_2_alg».proof.Proof.KerArray
import proofs.«179713_j91053306675883_2_alg».proof.Proof.Finite
import Idealize.ShloMosaic.Adequacy
import Idealize.ShloMosaic.Init

noncomputable section

namespace Cert.Proof

open Idealize.ShloMosaic Idealize.SL.Sem Cert.Kernel

/-- The kernel as printed runs to the end and leaves its arguments as they were. -/
theorem frame_kernel : Cert.frame_Kernel := fun m ρ _ => Cert.Kernel.Gen.frame m ρ

/-- So does its idealized reading. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are real-valued, the kernel ends at `(x · Rᵀ) · Lᵀ + b` and the reference at
    `x · Wᵀ + b` with `W` the folded train: one array, because `W = L · R` on the reals. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨r0, r1, r2, r3, r4, r5, r6, _⟩ := Cert.Pre_finite_inputs.Finite.reals_of_pre _ _ _ _ _ _ _ _ (hpre c)
  rw [Cert.ReferenceIdeal.Read.val_main_v20_eq, Cert.ReferenceIdeal.RefValue.result_eq, e0, e1, e2, e3, e4, e5, e6, e7]
  exact (Cert.TTChain.kerOut_eq_refOut _ _ _ _ _ _ r0 (Cert.ReferenceIdeal.RefValue.left_real _ _ _ r1 r2 r3) r4 r5 r6).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
